-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8 : Shape := ⟨1, ![8]⟩
abbrev S1024x8 : Shape := ⟨2, ![1024, 8]⟩
abbrev S256x1024 : Shape := ⟨2, ![256, 1024]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8 : S_.BroadcastsInDim S8 (![] : Fin 0 → Fin S8.rank)
  reducesTo_S8_S_d0 : S8.ReducesTo [0] S_
  bcast_S_S1024x8 : S_.BroadcastsInDim S1024x8 (![] : Fin 0 → Fin S1024x8.rank)
  reducesTo_S1024x8_S_d0_1 : S1024x8.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  main_v18

def fn {F : FTy → Type} [FloatOps F] (main_arg0 : FVec F S8x4096x256 .f32) (main_arg1 : FVec F S8 .f32) (main_arg2 : FVec F S1024x8 .f32) (main_arg3 : FVec F S256x1024 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S1024x8 .f32 := Host.absf main_arg2
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_c_3 : IVec S_ 1 := constantI S_ 1 1#1
  let main_v12 : IVec S_ 1 := (fun x v => Host.reduce IntOp.andi x v reducesTo_S1024x8_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_v13 main_v16
-- ==== Kernel.lean ====
abbrev S8x4096x256 : Shape := ⟨3, ![8, 4096, 256]⟩
abbrev S8 : Shape := ⟨1, ![8]⟩
abbrev S1024x8 : Shape := ⟨2, ![1024, 8]⟩
abbrev S256x1024 : Shape := ⟨2, ![256, 1024]⟩
abbrev S8x1024 : Shape := ⟨2, ![8, 1024]⟩
abbrev S1024x256 : Shape := ⟨2, ![1024, 256]⟩
abbrev S8x4096x8 : Shape := ⟨3, ![8, 4096, 8]⟩
abbrev S1x2048x8 : Shape := ⟨3, ![1, 2048, 8]⟩
abbrev S1x2048x256 : Shape := ⟨3, ![1, 2048, 256]⟩
abbrev S2048x8 : Shape := ⟨2, ![2048, 8]⟩
abbrev S1x8 : Shape := ⟨2, ![1, 8]⟩
abbrev S2048x1024 : Shape := ⟨2, ![2048, 1024]⟩
abbrev S2048x1 : Shape := ⟨2, ![2048, 1]⟩
abbrev S1x1024 : Shape := ⟨2, ![1, 1024]⟩
abbrev S2048x256 : Shape := ⟨2, ![2048, 256]⟩

abbrev nBuf : Space → Nat
  | .hbm => 10
  | .vmem => 7
  | .smem => 0
  | _ => 0

abbrev bufTy : (tb : Table) → Fin (tcTables nBuf tb) → BufTy
  | .hbm, ⟨0, _⟩ => ⟨S8x4096x256, .f32⟩
  | .hbm, ⟨1, _⟩ => ⟨S8, .f32⟩
  | .hbm, ⟨2, _⟩ => ⟨S1024x8, .f32⟩
  | .hbm, ⟨3, _⟩ => ⟨S256x1024, .f32⟩
  | .hbm, ⟨4, _⟩ => ⟨S8, .f32⟩
  | .hbm, ⟨5, _⟩ => ⟨S8x1024, .f32⟩
  | .hbm, ⟨6, _⟩ => ⟨S1024x256, .f32⟩
  | .hbm, ⟨7, _⟩ => ⟨S1024x256, .bf16⟩
  | .hbm, ⟨8, _⟩ => ⟨S8x4096x8, .f32⟩
  | .hbm, ⟨9, _⟩ => ⟨S8x4096x256, .f32⟩
  | .local _ .vmem, ⟨0, _⟩ => ⟨S1x2048x8, .f32⟩
  | .local _ .vmem, ⟨1, _⟩ => ⟨S1x2048x8, .f32⟩
  | .local _ .vmem, ⟨2, _⟩ => ⟨S8, .f32⟩
  | .local _ .vmem, ⟨3, _⟩ => ⟨S8x1024, .f32⟩
  | .local _ .vmem, ⟨4, _⟩ => ⟨S1024x256, .bf16⟩
  | .local _ .vmem, ⟨5, _⟩ => ⟨S1x2048x256, .f32⟩
  | .local _ .vmem, ⟨6, _⟩ => ⟨S1x2048x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x8_S8x1024_1_0 : S1024x8.Transposes [1, 0] S8x1024
  transposes_S256x1024_S1024x256_1_0 : S256x1024.Transposes [1, 0] S1024x256
  bitsLt_bf16_f32 : FTy.bits .bf16 < FTy.bits .f32
  slices_S8x4096x256_S8x4096x8_0_0_0 : S8x4096x256.Slices ![0, 0, 0] S8x4096x8
  inb_S1x2048x8_S1x2048x8_0_0_0 : ∀ a, (![0, 0, 0] : Fin 3 → Nat) a + S1x2048x8.size a ≤ S1x2048x8.size a
  h_S1x2048x8 : 0 < S1x2048x8.numel
  shapeCasts_S1x2048x8_S2048x8 : S1x2048x8.ShapeCasts S2048x8
  inb_S8_S8_0 : ∀ a, (![0] : Fin 1 → Nat) a + S8.size a ≤ S8.size a
  h_S8 : 0 < S8.numel
  shapeCasts_S8_S8 : S8.ShapeCasts S8
  shapeCasts_S8_S1x8 : S8.ShapeCasts S1x8
  broadcasts_S1x8_S2048x8 : S1x8.Broadcasts S2048x8
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  slices_S2048x8_o0_0_S2048x1 : S2048x8.Slices ![0, 0] S2048x1
  slices_S8x1024_o0_0_S1x1024 : S8x1024.Slices ![0, 0] S1x1024
  broadcasts_S2048x1_S2048x1024 : S2048x1.Broadcasts S2048x1024
  broadcasts_S1x1024_S2048x1024 : S1x1024.Broadcasts S2048x1024
  slices_S2048x8_o0_1_S2048x1 : S2048x8.Slices ![0, 1] S2048x1
  slices_S8x1024_o1_0_S1x1024 : S8x1024.Slices ![1, 0] S1x1024
  slices_S2048x8_o0_2_S2048x1 : S2048x8.Slices ![0, 2] S2048x1
  slices_S8x1024_o2_0_S1x1024 : S8x1024.Slices ![2, 0] S1x1024
  slices_S2048x8_o0_3_S2048x1 : S2048x8.Slices ![0, 3] S2048x1
  slices_S8x1024_o3_0_S1x1024 : S8x1024.Slices ![3, 0] S1x1024
  slices_S2048x8_o0_4_S2048x1 : S2048x8.Slices ![0, 4] S2048x1
  slices_S8x1024_o4_0_S1x1024 : S8x1024.Slices ![4, 0] S1x1024
  slices_S2048x8_o0_5_S2048x1 : S2048x8.Slices ![0, 5] S2048x1
  slices_S8x1024_o5_0_S1x1024 : S8x1024.Slices ![5, 0] S1x1024
  slices_S2048x8_o0_6_S2048x1 : S2048x8.Slices ![0, 6] S2048x1
  slices_S8x1024_o6_0_S1x1024 : S8x1024.Slices ![6, 0] S1x1024
  slices_S2048x8_o0_7_S2048x1 : S2048x8.Slices ![0, 7] S2048x1
  slices_S8x1024_o7_0_S1x1024 : S8x1024.Slices ![7, 0] S1x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x8.size a ≤ S8x4096x8.size a
  hwx0_0 : ∀ i : grid0.Coords, EltTy.bits .f32 = 32 ∨ (Rect.block (s := S8x4096x8) S1x2048x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x1024.size a
  hwx0_2 : ∀ i : grid0.Coords, EltTy.bits .f32 = 32 ∨ (Rect.block (s := S8x1024) S8x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S8x4096x256.size a
  hwx0_4 : ∀ i : grid0.Coords, EltTy.bits .f32 = 32 ∨ (Rect.block (s := S8x4096x256) S1x2048x256.size (cc0_transform_4 i) (hinb0_4 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_v4) S1x2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S8 : Shape := ⟨1, ![8]⟩
abbrev S1024x8 : Shape := ⟨2, ![1024, 8]⟩
abbrev S256x1024 : Shape := ⟨2, ![256, 1024]⟩
abbrev S8x4096x8 : Shape := ⟨3, ![8, 4096, 8]⟩
abbrev S1x1x8 : Shape := ⟨3, ![1, 1, 8]⟩
abbrev S8x4096x1024 : Shape := ⟨3, ![8, 4096, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8, .f32⟩
  | .hbm, ⟨2, _⟩ => ⟨S1024x8, .f32⟩
  | .hbm, ⟨3, _⟩ => ⟨S256x1024, .f32⟩
  | .hbm, ⟨4, _⟩ => ⟨S8x4096x8, .f32⟩
  | .hbm, ⟨5, _⟩ => ⟨S8x4096x8, .f32⟩
  | .hbm, ⟨6, _⟩ => ⟨S8, .f32⟩
  | .hbm, ⟨7, _⟩ => ⟨S1x1x8, .f32⟩
  | .hbm, ⟨8, _⟩ => ⟨S8x4096x8, .f32⟩
  | .hbm, ⟨9, _⟩ => ⟨S8x4096x8, .f32⟩
  | .hbm, ⟨10, _⟩ => ⟨S8x4096x1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  slices_S8x4096x256_S8x4096x8_0_0_0 : S8x4096x256.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S_S8x4096x1024 : S_.BroadcastsInDim S8x4096x1024 (![] : Fin 0 → Fin S8x4096x1024.rank)
  dot_S8x4096x8_S1024x8_S8x4096x1024_2_1_01_0_n_n_wf : DotDims.WF S8x4096x8 S1024x8 S8x4096x1024 [2] [1] [0, 1] [0] [] []
  dot_S8x4096x1024_S256x1024_S8x4096x256_2_1_01_0_n_n_wf : DotDims.WF S8x4096x1024 S256x1024 S8x4096x256 [2] [1] [0, 1] [0] [] []

variable [Facts₀]

def dot_S8x4096x8_S1024x8_S8x4096x1024_2_1_01_0_n_n : DotDims S8x4096x8 S1024x8 S8x4096x1024 where
  lhsContracting := [2]
  rhsContracting := [1]
  lhsNonContracting := [0, 1]
  rhsNonContracting := [0]
  lhsBatch := []
  rhsBatch := []
  wf := dot_S8x4096x8_S1024x8_S8x4096x1024_2_1_01_0_n_n_wf
def dot_S8x4096x1024_S256x1024_S8x4096x256_2_1_01_0_n_n : DotDims S8x4096x1024 S256x1024 S8x4096x256 where
  lhsContracting := [2]
  rhsContracting := [1]
  lhsNonContracting := [0, 1]
  rhsNonContracting := [0]
  lhsBatch := []
  rhsBatch := []
  wf := dot_S8x4096x1024_S256x1024_S8x4096x256_2_1_01_0_n_n_wf

class Facts : Prop extends Facts₀ where

variable [Facts]
-- ==== Proof.Spec.lean ====
/-
  The function both programs compute, over the extended reals, index by index.

  For a token (b, s) of the input x : [8, 4096, 256], only the first 8 of its 256 columns are read. Wire k of the
  token has expectation  wire(b, s, k) = cos x[b, s, k] · cos θ[k].  The hidden layer is the rectified image of the
  eight wires under W1 : [1024, 8],  hidden(b, s, f) = max (∑ₖ wire(b, s, k) · W1[f, k]) 0,  and the result is its image
  under W2 : [256, 1024],  out[b, s, e] = ∑_f hidden(b, s, f) · W2[e, f].

  Only sums and products of extended reals in a fixed order of the factors appear, so no finiteness of the inputs is
  needed to compare two programs that compute this function with their sums grouped differently: addition of
  extended reals is commutative and associative, and 0 is its neutral element, at the infinities too.
-/
import Idealize.ShloMosaic.PureOps.Ideal
import Idealize.ShloMosaic.PureOps.Ideal.Laws
import Idealize.ShloMosaic.Lib.ValueIdx

noncomputable section

namespace Cert.FeedForward

open Idealize.ShloMosaic Idealize.ShloMosaic.ValueIdx

/-- The shapes of the four arguments: the tokens, the wire angles, and the two weight matrices. -/
abbrev Tokens : Shape := ⟨3, ![8, 4096, 256]⟩
abbrev Angles : Shape := ⟨1, ![8]⟩
abbrev Weights1 : Shape := ⟨2, ![1024, 8]⟩
abbrev Weights2 : Shape := ⟨2, ![256, 1024]⟩

/-- Wire `k` sits in column `k` of a token's 256 columns. -/
abbrev col (k : Fin 8) : Fin 256 := k.castLE (by decide)

/-- The expectation of wire `k` of token `(b, s)`: `cos x[b, s, k] · cos θ[k]`. -/
def wire (x : Tokens.Idx → EReal) (θ : Angles.Idx → EReal) (b : Fin 8) (s : Fin 4096) (k : Fin 8) : EReal :=
  Ideal.cos (x (ix3 b s (col k))) * Ideal.cos (θ (ix1 k))

/-- Hidden unit `f` of token `(b, s)`: the eight wires weighted by row `f` of `W1`, rectified. -/
def hidden (x : Tokens.Idx → EReal) (θ : Angles.Idx → EReal) (W1 : Weights1.Idx → EReal)
    (b : Fin 8) (s : Fin 4096) (f : Fin 1024) : EReal :=
  max (∑ k : Fin 8, wire x θ b s k * W1 (ix2 f k)) 0

/-- The result: the 1024 hidden units of a token weighted by row `e` of `W2`. -/
def out (x : Tokens.Idx → EReal) (θ : Angles.Idx → EReal) (W1 : Weights1.Idx → EReal) (W2 : Weights2.Idx → EReal) :
    Tokens.Idx → EReal :=
  fun i => ∑ f : Fin 1024, hidden x θ W1 (i 0) (i 1) f * W2 (ix2 (i 2) f)

/-- Eight terms added one after the other onto zero are their sum. -/
theorem sum_eight_onto_zero (a : Fin 8 → EReal) :
    (0 : EReal) + a 0 + a 1 + a 2 + a 3 + a 4 + a 5 + a 6 + a 7 = ∑ k : Fin 8, a k := by
  rw [Fin.sum_univ_eight, zero_add]

end Cert.FeedForward

end
-- ==== Proof.RefValue.lean ====
/-
  The reference program computes `FeedForward.out`.

  Read one operation at a time, its result at an index (b, s, e) is the sum over the 1024 hidden units f of
  max (∑ₖ (cos x[b, s, k] · cos θ[k]) · W1[f, k]) 0 · W2[e, f]: the slice keeps columns 0 … 7, the two broadcasts copy
  cos θ along the tokens, each contraction is a plain sum at the ideal values, and the rectifier's zero is the real 0.
-/
import proofs.«176183_j65481071396684_2_alg».proof.Proof.Gen.ReferenceIdeal.Read
import proofs.«176183_j65481071396684_2_alg».proof.Proof.Spec

noncomputable section

namespace Cert.FeedForward.Reference

open Cert.ReferenceIdeal Cert.ReferenceIdeal.Read Idealize.ShloMosaic Idealize.ShloMosaic.ValueIdx Cert.FeedForward

/-- The token entry that wire `k` of hidden unit `f` of result index `i` reads. -/
theorem token_idx (i : S8x4096x256.Idx) (f : Fin 1024) (k : Fin 8) :
    idx_main_v0 (lidx_main_v6 (lidx_main_v8 i f) k) = ix3 (i 0) (i 1) (col k) :=
  funext fun a => by match a with | ⟨0, _⟩ => rfl | ⟨1, _⟩ => rfl | ⟨2, _⟩ => rfl

/-- The angle it reads. -/
theorem angle_idx (i : S8x4096x256.Idx) (f : Fin 1024) (k : Fin 8) :
    idx_main_v3 (idx_main_v4 (lidx_main_v6 (lidx_main_v8 i f) k)) = ix1 k :=
  funext fun a => by match a with | ⟨0, _⟩ => rfl

/-- The entry of `W1` it meets. -/
theorem weight1_idx (i : S8x4096x256.Idx) (f : Fin 1024) (k : Fin 8) :
    ridx_main_v6 (lidx_main_v8 i f) k = ix2 f k :=
  funext fun a => by match a with | ⟨0, _⟩ => rfl | ⟨1, _⟩ => rfl

/-- The entry of `W2` hidden unit `f` meets. -/
theorem weight2_idx (i : S8x4096x256.Idx) (f : Fin 1024) : ridx_main_v8 i f = ix2 (i 2) f :=
  funext fun a => by match a with | ⟨0, _⟩ => rfl | ⟨1, _⟩ => rfl

/-- The reference's result, as a function of the four arguments, is `out`. -/
theorem result_eq (x : (⟨S8x4096x256, .f32⟩ : BufTy).Contents (Elt Ideal)) (θ : (⟨S8, .f32⟩ : BufTy).Contents (Elt Ideal))
    (W1 : (⟨S1024x8, .f32⟩ : BufTy).Contents (Elt Ideal)) (W2 : (⟨S256x1024, .f32⟩ : BufTy).Contents (Elt Ideal)) :
    val_main_v8 (F := Ideal) x θ W1 W2 = out x θ W1 W2 := by
  funext i
  rw [val_main_v8_apply]
  unfold out
  refine Finset.sum_congr rfl fun f _ => ?_
  rw [weight2_idx, val_main_v7_apply, val_main_v6_apply, val_main_call0_v0_apply, val_main_call0_cst_apply]
  unfold hidden
  refine congrArg (· * W2 (ix2 (i 2) f)) ?_
  show max _ (Ideal.ofBits .f32 0x00000000#32) = _
  rw [Ideal.ofBits_zero_f32]
  refine congrArg (max · 0) (Finset.sum_congr rfl fun k _ => ?_)
  rw [weight1_idx, val_main_v5_apply, val_main_v1_apply, val_main_v0_apply, val_main_v4_apply, val_main_v3_apply,
    val_main_v2_apply, token_idx, angle_idx]
  rfl

end Cert.FeedForward.Reference

end
-- ==== Proof.LibColumnSpread.lean ====
/-
  One column, or one row, of a matrix spread over a whole matrix, read at an index — at any extents.

  A kernel that multiplies a column vector by a row vector elementwise (an outer product, one term of a small
  contraction written out) cuts column `o` out of an `[a, n]` matrix as an `[a, 1]` block and broadcasts it to
  `[a, b]`, and cuts row `o` out of an `[n, b]` matrix as a `[1, b]` block and broadcasts it to `[a, b]`. Read at `(p, c)`
  the first is the matrix at `(p, o)` and the second the matrix at `(o, c)`.
-/
import Idealize.ShloMosaic.Lib.Pipeline.Value
import Idealize.ShloMosaic.Lib.ValueIdx
import Idealize.ShloMosaic.Lib.ValueLayout

namespace Cert.LibColumnSpread

open Idealize.ShloMosaic Idealize.ShloMosaic.ValueIdx

variable {α : Type}

/-- One column broadcast over many: an `[a, 1]` array broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of an `[a, n]` matrix, cut out and spread over `[a, b]`, reads at `(p, c)` the matrix at `(p, o)`. -/
theorem column_spread_apply {a n b : ℕ} (o : ℕ) (X : (⟨2, ![a, n]⟩ : Shape).Idx → α)
    (hs : (⟨2, ![a, n]⟩ : Shape).Slices ![0, o] ⟨2, ![a, 1]⟩) (hb : (⟨2, ![a, 1]⟩ : Shape).Broadcasts ⟨2, ![a, b]⟩)
    (p : Fin a) (c : Fin b) :
    broadcastTo ⟨2, ![a, b]⟩ (extractStridedSlice ⟨2, ![a, 1]⟩ ![0, o] X hs) hb (ix2 p c)
      = X (ix2 p ⟨o, Nat.lt_of_succ_le (hs.2 1)⟩) :=
  (broadcastTo_a1_ab_apply _ hb p c).trans (slice2_axis1_apply o X hs p (0 : Fin 1) _ rfl)

/-- Row `o` of an `[n, b]` matrix, cut out and spread over `[a, b]`, reads at `(p, c)` the matrix at `(o, c)`. -/
theorem row_spread_apply {n b a : ℕ} (o : ℕ) (X : (⟨2, ![n, b]⟩ : Shape).Idx → α)
    (hs : (⟨2, ![n, b]⟩ : Shape).Slices ![o, 0] ⟨2, ![1, b]⟩) (hb : (⟨2, ![1, b]⟩ : Shape).Broadcasts ⟨2, ![a, b]⟩)
    (p : Fin a) (c : Fin b) :
    broadcastTo ⟨2, ![a, b]⟩ (extractStridedSlice ⟨2, ![1, b]⟩ ![o, 0] X hs) hb (ix2 p c)
      = X (ix2 ⟨o, Nat.lt_of_succ_le (hs.2 0)⟩ c) :=
  (broadcastTo_1b_ab_apply _ hb p c).trans (slice2_axis0_apply o X hs (0 : Fin 1) c _ rfl)

end Cert.LibColumnSpread
-- ==== Proof.BodyValue.lean ====
/-
  What the kernel body leaves in its output block, read at an index, as a function of the four input blocks.

  The body holds a block of 2048 tokens `x0 : [1, 2048, 8]` (their first eight columns), the cosines of the angles
  `x1 : [8]`, the transposed first weights `x2 : [8, 1024]` and the transposed second weights `x3 : [1024, 256]`.
  It forms the wires `cos x0[0, r, k] · x1[k]`, adds onto a zero block, for k = 0 … 7 in turn, column k of the wires
  spread along the hidden units times row k of `x2` spread along the tokens, rectifies, and multiplies the result
  into `x3` by a matrix product with a zero accumulator. So at (u, r, e) the block holds
  ∑_f max (∑ₖ (cos x0[0, r, k] · x1[k]) · x2[k, f]) 0 · x3[f, e]:
  the eight additions onto zero are the sum over k, and the matrix product is the sum over f.
-/
import proofs.«176183_j65481071396684_2_alg».proof.Proof.Gen.KernelIdeal.Frame
import proofs.«176183_j65481071396684_2_alg».proof.Proof.Spec
import proofs.«176183_j65481071396684_2_alg».proof.Proof.LibColumnSpread
import Idealize.ShloMosaic.Lib.Pipeline.Value
import Idealize.ShloMosaic.Lib.ValueIdx
import Idealize.ShloMosaic.Lib.ValueLayout
import Idealize.ShloMosaic.PureOps.Ideal.Laws

noncomputable section

namespace Cert.FeedForward.Body

open Cert.KernelIdeal Cert.KernelIdeal.Gen Idealize.ShloMosaic Idealize.ShloMosaic.ValueIdx Cert.FeedForward
open Cert.LibColumnSpread

/-- The contraction of the body's matrix product: hidden units against the second weights. -/
abbrev headDot : DotDims S2048x1024 S1024x256 S2048x256 := dot_S2048x1024_S1024x256_S2048x256_1_0_0_1_n_n

/-- The wires of token `r` of the block: `cos x0[0, r, k] · x1[k]`. -/
theorem wires_apply (x0 : Vec Ideal S1x2048x8 .f32) (x1 : Vec Ideal S8 .f32) (r : Fin 2048) (k : Fin 8) :
    k0_pay2 (F := Ideal) x0 x1 (ix2 r k) = Ideal.cos (x0 (ix3 (0 : Fin 1) r k)) * x1 (ix1 k) := by
  unfold k0_pay2
  show Ideal.cos (shapeCast S2048x8 x0 _ (ix2 r k)) * broadcastTo S2048x8 (shapeCast S1x8 (shapeCast S8 x1 _) _) _ (ix2 r k) = _
  rw [shapeCast_1ab_ab_apply, broadcastTo_1b_ab_apply, shapeCast_a_1a_apply, shapeCast_self]

/-- The first weights are used as loaded. -/
theorem weights1_eq (x2 : Vec Ideal S8x1024 .f32) : k0_pay3 (F := Ideal) x2 = x2 := by
  unfold k0_pay3
  exact shapeCast_self _ _

/-- The first six terms, added one after the other onto zero. -/
theorem six_terms_apply (x0 : Vec Ideal S1x2048x8 .f32) (x1 : Vec Ideal S8 .f32) (x2 : Vec Ideal S8x1024 .f32)
    (r : Fin 2048) (f : Fin 1024) :
    k0_pay4 (F := Ideal) x0 x1 x2 (ix2 r f)
      = 0 + k0_pay2 (F := Ideal) x0 x1 (ix2 r 0) * x2 (ix2 0 f) + k0_pay2 (F := Ideal) x0 x1 (ix2 r 1) * x2 (ix2 1 f)
          + k0_pay2 (F := Ideal) x0 x1 (ix2 r 2) * x2 (ix2 2 f) + k0_pay2 (F := Ideal) x0 x1 (ix2 r 3) * x2 (ix2 3 f)
          + k0_pay2 (F := Ideal) x0 x1 (ix2 r 4) * x2 (ix2 4 f) + k0_pay2 (F := Ideal) x0 x1 (ix2 r 5) * x2 (ix2 5 f) := by
  unfold k0_pay4
  rw [weights1_eq]
  generalize k0_pay2 (F := Ideal) x0 x1 = Q
  simp only [addf_apply, mulf_apply, broadcast_apply, column_spread_apply, row_spread_apply]
  show Ideal.ofBits .f32 0x00000000#32 + _ + _ + _ + _ + _ + _ = _
  rw [Ideal.ofBits_zero_f32]
  rfl

/-- The seventh term's two factors. -/
theorem seventh_wire_apply (x0 : Vec Ideal S1x2048x8 .f32) (x1 : Vec Ideal S8 .f32) (r : Fin 2048) (f : Fin 1024) :
    k0_pay5 (F := Ideal) x0 x1 (ix2 r f) = k0_pay2 (F := Ideal) x0 x1 (ix2 r 6) := by
  unfold k0_pay5
  generalize k0_pay2 (F := Ideal) x0 x1 = Q
  rw [column_spread_apply]
  rfl

theorem seventh_weight_apply (x2 : Vec Ideal S8x1024 .f32) (r : Fin 2048) (f : Fin 1024) :
    k0_pay6 (F := Ideal) x2 (ix2 r f) = x2 (ix2 6 f) := by
  unfold k0_pay6
  rw [weights1_eq, row_spread_apply]
  rfl

/-- Output row `r`, column `e` of the matrix product reads row `r` of its left factor. -/
theorem head_lhs_row (i : S2048x256.Idx) (q : headDot.contr.Idx) : (headDot.lhsIdx i q 0).val = (i 0).val := by
  unfold DotDims.lhsIdx
  rw [dif_neg (show ¬(0 : Fin S2048x1024.rank) ∈ headDot.lhsBatch by decide),
    dif_pos (show (0 : Fin S2048x1024.rank) ∈ headDot.lhsNonContracting by decide)]
  rfl

/-- … and column `e` of its right factor. -/
theorem head_rhs_col (i : S2048x256.Idx) (q : headDot.contr.Idx) : (headDot.rhsIdx i q 1).val = (i 1).val := by
  unfold DotDims.rhsIdx
  rw [dif_neg (show ¬(1 : Fin S1024x256.rank) ∈ headDot.rhsBatch by decide),
    dif_pos (show (1 : Fin S1024x256.rank) ∈ headDot.rhsNonContracting by decide)]
  rfl

/-- The stored value from the body's intermediate blocks: the last two terms added on, the rectifier, and the
    matrix product into the second weights as a sum over the hidden units. -/
theorem head_apply (v7 : FVec Ideal S2048x8 .f32) (v9 : FVec Ideal S8x1024 .f32) (v46 v49 v50 : FVec Ideal S2048x1024 .f32)
    (v62 : Vec Ideal S1024x256 .bf16) (u : Fin 1) (r : Fin 2048) (e : Fin 256) :
    k0_pay1 (F := Ideal) v7 v9 v46 v49 v50 v62 (ix3 u r e)
      = ∑ f : Fin 1024, max (v46 (ix2 r f) + v49 (ix2 r f) * v50 (ix2 r f) + v7 (ix2 r 7) * v9 (ix2 7 f)) 0 * v62 (ix2 f e) := by
  unfold k0_pay1
  rw [shapeCast_ab_1ab_apply]
  simp only [matmul]
  rw [Ideal.matmul_constant_zero_apply, ← Equiv.sum_comp (contrEquiv1 headDot 1024 rfl rfl).symm]
  refine Finset.sum_congr rfl fun f _ => ?_
  have hk := contrEquiv1_symm_val headDot 1024 rfl rfl f
  have el : headDot.lhsIdx (ix2 r e) ((contrEquiv1 headDot 1024 rfl rfl).symm f) = ix2 r f :=
    funext fun a => Fin.ext (by
      match a with
      | ⟨0, _⟩ => exact head_lhs_row _ _
      | ⟨1, _⟩ => exact (headDot.lhsIdx_val_of_single rfl _ _).trans hk)
  have er : headDot.rhsIdx (ix2 r e) ((contrEquiv1 headDot 1024 rfl rfl).symm f) = ix2 f e :=
    funext fun a => Fin.ext (by
      match a with
      | ⟨0, _⟩ => exact (headDot.rhsIdx_val_of_single rfl _ _).trans hk
      | ⟨1, _⟩ => exact head_rhs_col _ _)
  rw [el, er, shapeCast_self]
  simp only [truncf_apply, maximumf_apply, addf_apply, mulf_apply, broadcast_apply, column_spread_apply, row_spread_apply]
  show max _ (Ideal.ofBits .f32 0x00000000#32) * _ = _
  rw [Ideal.ofBits_zero_f32]
  rfl

/-- THE BLOCK the body stores, at an index: the rectified image of the eight wires under the first weights, summed
    against the second weights. -/
theorem block_apply (x0 : Vec Ideal S1x2048x8 .f32) (x1 : Vec Ideal S8 .f32) (x2 : Vec Ideal S8x1024 .f32)
    (x3 : Vec Ideal S1024x256 .bf16) (u : Fin 1) (r : Fin 2048) (e : Fin 256) :
    k0_pay1 (F := Ideal) (k0_pay2 x0 x1) (k0_pay3 x2) (k0_pay4 x0 x1 x2) (k0_pay5 x0 x1) (k0_pay6 x2) x3 (ix3 u r e)
      = ∑ f : Fin 1024, max (∑ k : Fin 8, (Ideal.cos (x0 (ix3 (0 : Fin 1) r k)) * x1 (ix1 k)) * x2 (ix2 k f)) 0 * x3 (ix2 f e) := by
  rw [head_apply]
  refine Finset.sum_congr rfl fun f _ => ?_
  rw [six_terms_apply, seventh_wire_apply, seventh_weight_apply, weights1_eq]
  refine congrArg (fun y => max y 0 * x3 (ix2 f e)) ?_
  refine (sum_eight_onto_zero fun k => k0_pay2 (F := Ideal) x0 x1 (ix2 r k) * x2 (ix2 k f)).trans ?_
  exact Finset.sum_congr rfl fun k _ => by rw [wires_apply]

/-- THE BLOCK against whole arrays: if the token block is rows of the tokens `A0` at the result index `i`'s token, the
    second block the cosines of the angles `A1`, and the two weight blocks the transposes of `A2` and `A3`, the body
    stores `out A0 A1 A2 A3` at `i`. -/
theorem block_eq_out (A0 : Tokens.Idx → EReal) (A1 : Angles.Idx → EReal) (A2 : Weights1.Idx → EReal) (A3 : Weights2.Idx → EReal)
    (x0 : Vec Ideal S1x2048x8 .f32) (x1 : Vec Ideal S8 .f32) (x2 : Vec Ideal S8x1024 .f32) (x3 : Vec Ideal S1024x256 .bf16)
    (i : Tokens.Idx) (u : Fin 1) (r : Fin 2048) (e : Fin 256)
    (h0 : ∀ k : Fin 8, x0 (ix3 (0 : Fin 1) r k) = A0 (ix3 (i 0 : Fin 8) (i 1 : Fin 4096) (col k)))
    (h1 : ∀ k : Fin 8, x1 (ix1 k) = Ideal.cos (A1 (ix1 k)))
    (h2 : ∀ (k : Fin 8) (f : Fin 1024), x2 (ix2 k f) = A2 (ix2 f k))
    (h3 : ∀ f : Fin 1024, x3 (ix2 f e) = A3 (ix2 (i 2 : Fin 256) f)) :
    k0_pay1 (F := Ideal) (k0_pay2 x0 x1) (k0_pay3 x2) (k0_pay4 x0 x1 x2) (k0_pay5 x0 x1) (k0_pay6 x2) x3 (ix3 u r e)
      = out A0 A1 A2 A3 i := by
  rw [block_apply]
  unfold out hidden wire
  refine Finset.sum_congr rfl fun f _ => ?_
  rw [h3 f]
  refine congrArg (fun y => max y 0 * A3 (ix2 (i 2 : Fin 256) f)) (Finset.sum_congr rfl fun k _ => ?_)
  rw [h0 k, h1 k, h2 k f]

end Cert.FeedForward.Body

end
-- ==== Proof.KernelValue.lean ====
/-
  The kernel's result array, whole: after the run it holds `FeedForward.out` of the four arguments.

  Before the region the host forms the arrays the windows read: the first eight columns of the tokens, the cosines of
  the angles, and the two weight matrices transposed. Grid point (b, h) reads rows 2048·h … 2048·h + 2047 of batch b
  of the sliced tokens and the other three arrays whole, and writes the same rows of batch b of the result; so what it
  writes back is that block of `out` of the arguments (the body's value, Proof/BodyValue.lean), and the sixteen
  blocks tile the result array.
-/
import proofs.«176183_j65481071396684_2_alg».proof.Proof.Gen.KernelIdeal.Value
import proofs.«176183_j65481071396684_2_alg».proof.Proof.BodyValue
import Idealize.ShloMosaic.Lib.Pipeline.Value
import Idealize.ShloMosaic.Lib.StableHlo.Run
import Idealize.ShloMosaic.Lib.ValueIdx
import Idealize.ShloMosaic.Lib.ValueLayout

noncomputable section

namespace Cert.FeedForward.Kernel

open Cert.KernelIdeal Cert.KernelIdeal.Gen Idealize.ShloMosaic Idealize.ShloMosaic.TcCoe Idealize.SL.Sem
open Idealize.ShloMosaic.ValueIdx Cert.FeedForward
open Idealize.ShloMosaic.Pipeline (Dat)

variable (m : (ℓ : Loc nD τ sig) → Buf (Elt Ideal) ℓ) (ρ : Dev nD → PrngReg)

/-! ## What the region finds in the arrays its windows read -/

/-- The sliced tokens: columns 0 … 7 of the first argument. -/
theorem entry_tokens (c : Dev nD) :
    (V m c main_v4 : S8x4096x8.Idx → EReal)
      = extractStridedSlice S8x4096x8 ![0, 0, 0] (m ((c : Thread nD τ).loc main_arg0)) slices_S8x4096x256_S8x4096x8_0_0_0 := by
  dsimp only [Gen.V, Gen.hostOps0]; after_results <;> rfl

/-- The cosines of the angles. -/
theorem entry_angles (c : Dev nD) :
    (V m c main_v0 : S8.Idx → EReal) = Host.cos (F := Ideal) (s := S8) (φ := .f32) (m ((c : Thread nD τ).loc main_arg1)) := by
  dsimp only [Gen.V, Gen.hostOps0]; after_results <;> rfl

/-- The first weights, transposed. -/
theorem entry_weights1 (c : Dev nD) :
    (V m c main_v1 : S8x1024.Idx → EReal)
      = transpose S8x1024 [1, 0] (m ((c : Thread nD τ).loc main_arg2)) transposes_S1024x8_S8x1024_1_0 := by
  dsimp only [Gen.V, Gen.hostOps0]; after_results <;> rfl

/-- The second weights, transposed (the change of format is the identity on extended reals). -/
theorem entry_weights2 (c : Dev nD) :
    (V m c main_v3 : S1024x256.Idx → EReal)
      = transpose S1024x256 [1, 0] (m ((c : Thread nD τ).loc main_arg3)) transposes_S256x1024_S1024x256_1_0 := by
  dsimp only [Gen.V, Gen.hostOps0]; after_results <;> rfl

/-! ## The grid -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the sixteen grid points: the token window moves with the result window along the
    batch and the row blocks, the other three windows stay at block zero, and the result window's block indices are a
    batch below 8, a row block below 2 and column block 0. -/
theorem grid_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 7 ∧ win0_4.index t (1 : Fin 3) ≤ 1 ∧ win0_4.index t (2 : Fin 3) = 0 :=
  (by decide +kernel : ∀ t : Fin grid0.N, _)

/-- Every (batch, row block) is some point's. -/
theorem points_onto : ∀ (q0 : Fin 8) (q1 : Fin 2), ∃ t : Fin cfg0.N, win0_4.index t = ![q0.val, q1.val, 0] :=
  (by decide +kernel : ∀ (q0 : Fin 8) (q1 : Fin 2), ∃ t : Fin grid0.N, win0_4.index t = ![q0.val, q1.val, 0])

/-! ## What a point writes back -/

/-- WHAT POINT `t` WRITES BACK is block `t` of `out` of the four arguments. -/
theorem flushed_eq (c : Dev nD) (t : Fin cfg0.N) :
    (dats m 0 c).flushed 4 t = ((cfg0.win 4).blk t).view.read (Elt Ideal)
      (out (m ((c : Thread nD τ).loc main_arg0)) (m ((c : Thread nD τ).loc main_arg1))
        (m ((c : Thread nD τ).loc main_arg2)) (m ((c : Thread nD τ).loc main_arg3))) := by
  rw [Cert.KernelIdeal.Value.flushed4]
  unfold out0_4
  rw [View.canon_unit_zero hz3]
  simp only [View.ld_unit_zero (S := S1x2048x8) hz3, View.ld_unit_zero (S := S8) hz1, View.ld_unit_zero (S := S8x1024) hz2,
    View.ld_unit_zero (S := S1024x256) hz2]
  obtain ⟨e0, e1, e2, e3, e4, e5, e6, e7, b0, b1, b2⟩ := grid_facts t
  funext y
  obtain ⟨u, r, e, rfl⟩ : ∃ (u : Fin 1) (r : Fin 2048) (e : Fin 256), y = ix3 u r e := ⟨y 0, y 1, y 2, eq_ix3 y⟩
  have hu : u.val = 0 := by have := u.isLt; omega
  show k0_pay1 (F := Ideal) _ _ _ _ _ _ (ix3 u r e) = out _ _ _ _ (((cfg0.win 4).blk t).view.emb (ix3 u r e))
  refine Body.block_eq_out _ _ _ _ (iblk m c 0 t) (iblk m c 1 t) (iblk m c 2 t) (iblk m c 3 t) _ u r e ?_ ?_ ?_ ?_
  · intro k
    show V m c main_v4 (((cfg0.win 0).blk t).view.emb (ix3 (0 : Fin 1) r k)) = _
    rw [entry_tokens]
    refine extractStridedSlice_apply _ _ _ _ _ fun a => ?_
    match a with
    | ⟨0, _⟩ =>
      show win0_4.index t (0 : Fin 3) * 1 + 1 * u.val = 0 + (win0_0.index t (0 : Fin 3) * 1 + 1 * 0)
      omega
    | ⟨1, _⟩ =>
      show win0_4.index t (1 : Fin 3) * 2048 + 1 * r.val = 0 + (win0_0.index t (1 : Fin 3) * 2048 + 1 * r.val)
      omega
    | ⟨2, _⟩ =>
      show k.val = 0 + (win0_0.index t (2 : Fin 3) * 8 + 1 * k.val)
      omega
  · intro k
    show V m c main_v0 (((cfg0.win 1).blk t).view.emb (ix1 k)) = _
    rw [entry_angles]
    have hj : ((cfg0.win 1).blk t).view.emb (ix1 k) = ix1 k := funext fun a => Fin.ext (by
      match a with
      | ⟨0, _⟩ => show win0_1.index t (0 : Fin 1) * 8 + 1 * k.val = k.val; omega)
    rw [hj]
    rfl
  · intro k f
    show V m c main_v1 (((cfg0.win 2).blk t).view.emb (ix2 k f)) = _
    rw [entry_weights1]
    have hj : ((cfg0.win 2).blk t).view.emb (ix2 k f) = ix2 k f := funext fun a => Fin.ext (by
      match a with
      | ⟨0, _⟩ => show win0_2.index t (0 : Fin 2) * 8 + 1 * k.val = k.val; omega
      | ⟨1, _⟩ => show win0_2.index t (1 : Fin 2) * 1024 + 1 * f.val = f.val; omega)
    rw [hj]
    exact transpose_ix2_apply _ _ k f
  · intro f
    show V m c main_v3 (((cfg0.win 3).blk t).view.emb (ix2 f e)) = _
    rw [entry_weights2]
    have hj : ((cfg0.win 3).blk t).view.emb (ix2 f e) = ix2 f e := funext fun a => Fin.ext (by
      match a with
      | ⟨0, _⟩ => show win0_3.index t (0 : Fin 2) * 1024 + 1 * f.val = f.val; omega
      | ⟨1, _⟩ => show win0_3.index t (1 : Fin 2) * 256 + 1 * e.val = e.val; omega)
    rw [hj]
    refine (transpose_ix2_apply _ _ f e).trans (congrArg _ ?_)
    funext a
    apply Fin.ext
    match a with
    | ⟨0, _⟩ => show e.val = win0_4.index t (2 : Fin 3) * 256 + 1 * e.val; omega
    | ⟨1, _⟩ => rfl

/-! ## The sixteen blocks tile the result -/

/-- An index of the result is in point `t`'s block iff each coordinate is in the block's range on its axis. -/
theorem mem_block (t : Fin cfg0.N) (i : S8x4096x256.Idx) :
    i ∈ ((cfg0.win 4).blk t).view.set ↔ ∀ a : Fin 3, win0_4.index t a * S1x2048x256.size a ≤ (i a).val
      ∧ (i a).val < win0_4.index t a * S1x2048x256.size a + S1x2048x256.size a := by
  show i ∈ ((View.whole main_v5).slice (win0_4.rect t)).set ↔ _
  rw [View.set_slice_whole, Rect.mem_set_unit]
  exact Iff.rfl

/-- Row `s` of batch `b` is written by the point of batch `b` and row block `s / 2048`. -/
theorem cover (i : S8x4096x256.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 256 := (i 2).isLt
  obtain ⟨t, ht⟩ := points_onto ⟨(i 0).val, hi0⟩ ⟨(i 1).val / 2048, by omega⟩
  have q0 : win0_4.index t (0 : Fin 3) = (i 0).val := congrFun ht 0
  have q1 : win0_4.index t (1 : Fin 3) = (i 1).val / 2048 := congrFun ht 1
  have q2 : win0_4.index t (2 : Fin 3) = 0 := congrFun ht 2
  refine ⟨t, flush0_4 t, ?_⟩
  rw [mem_block]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 2048 ≤ (i 1).val ∧ (i 1).val < win0_4.index t (1 : Fin 3) * 2048 + 2048
    omega
  | ⟨2, _⟩ =>
    show win0_4.index t (2 : Fin 3) * 256 ≤ (i 2).val ∧ (i 2).val < win0_4.index t (2 : Fin 3) * 256 + 256
    omega

/-- THE RESULT ARRAY after the run is `out` of the four arguments. -/
theorem final (c : Dev nD) :
    (dats m 0 c).arrAt 4 cfg0.N
      = out (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) cover

/-- The kernel's run, read: the result array at `out` of the arguments, the arguments unchanged. -/
theorem run : θ_run defs (onTc (τ := τ) (main (F := Ideal))) ⟨m, fun _ => 0, ρ⟩ fun r => ∀ c : Dev nD,
      r.2.mem ((c : Thread nD τ).loc main_v5)
        = out (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.FeedForward.Kernel

end
-- ==== Proof.lean ====
/-
  The kernel and its reference compute one function of the tokens x, the angles θ and the weights W1, W2:

    out[b, s, e] = ∑_f max (∑ₖ (cos x[b, s, k] · cos θ[k]) · W1[f, k]) 0 · W2[e, f],   k over the first 8 columns,

  read on the extended reals (Proof/Spec.lean). The reference forms it with two contractions and a rectifier between
  them (Proof/RefValue.lean). The kernel takes the cosines of the angles, the transposed weights and the first eight
  columns of the tokens on the host, then over a grid of 8 batches × 2 blocks of 2048 rows adds the eight wire terms
  one after the other onto zero, rectifies, and multiplies into the second weights (Proof/BodyValue.lean); the sixteen
  blocks it writes tile the result (Proof/KernelValue.lean). The two differ only in how the sums are grouped and in
  changes of float format, which are the identity on extended reals; addition there is commutative and associative with
  neutral element 0 also at the infinities, so the precondition is never opened. Nothing was rewritten when the kernel
  was idealized, so that conjunct is `True`. The three frames are the generated ones, the reference's its generated
  run with the result dropped.
-/
import proofs.«176183_j65481071396684_2_alg».proof.Defs
import proofs.«176183_j65481071396684_2_alg».proof.Proof.Gen.Kernel
import proofs.«176183_j65481071396684_2_alg».proof.Proof.Gen.Kernel.Frame
import proofs.«176183_j65481071396684_2_alg».proof.Proof.Gen.KernelIdeal
import proofs.«176183_j65481071396684_2_alg».proof.Proof.Gen.KernelIdeal.Frame
import proofs.«176183_j65481071396684_2_alg».proof.Proof.Gen.KernelIdeal.Value
import proofs.«176183_j65481071396684_2_alg».proof.Proof.Gen.ReferenceIdeal
import proofs.«176183_j65481071396684_2_alg».proof.Proof.Gen.ReferenceIdeal.Run
import proofs.«176183_j65481071396684_2_alg».proof.Proof.Gen.ReferenceIdeal.Read
import proofs.«176183_j65481071396684_2_alg».proof.Proof.Gen.Pre_finite_inputs
import proofs.«176183_j65481071396684_2_alg».proof.Proof.RefValue
import proofs.«176183_j65481071396684_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the four arguments, both programs end with the result array at `out` of those
    arguments: the kernel by its blocks, the reference by its operations read one at a time. -/
theorem algebraic : Cert.algebraic_KernelIdeal_ReferenceIdeal := by
  intro m ρ m' ρ' _ hagree
  refine ⟨fun c => Cert.FeedForward.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.FeedForward.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.FeedForward.Reference.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
